-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512 .f32) (main_arg8 : FVec F S512x512 .f32) (main_arg9 : FVec F S512x512 .f32) (main_arg10 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x512 .f32) (main_arg6 : FVec F S512x512 .f32) (main_arg7 : FVec F S512 .f32) (main_arg8 : FVec F S512x512 .f32) (main_arg9 : FVec F S512x512 .f32) (main_arg10 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x512 .f32) (main_arg1 : FVec F S16384x512 .f32) (main_arg2 : FVec F S512x512 .f32) (main_arg3 : FVec F S512x512 .f32) (main_arg4 : FVec F S512 .f32) (main_arg5 : FVec F S512x512 .f32) (main_arg6 : FVec F S512x512 .f32) (main_arg7 : FVec F S512 .f32) (main_arg8 : FVec F S512x512 .f32) (main_arg9 : FVec F S512x512 .f32) (main_arg10 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_v13 main_v16
-- ==== Kernel.lean ====
abbrev S16384x512 : Shape := ⟨2, ![16384, 512]⟩
abbrev S512x512 : Shape := ⟨2, ![512, 512]⟩
abbrev S512 : Shape := ⟨1, ![512]⟩
abbrev S512x1536 : Shape := ⟨2, ![512, 1536]⟩
abbrev S1536 : Shape := ⟨1, ![1536]⟩
abbrev S1x1536 : Shape := ⟨2, ![1, 1536]⟩

abbrev nBuf : Space → Nat
  | .hbm => 18
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x1536, .f32⟩
  | .hbm, ⟨12, _⟩ => ⟨S512x1536, .bf16⟩
  | .hbm, ⟨13, _⟩ => ⟨S512x1536, .f32⟩
  | .hbm, ⟨14, _⟩ => ⟨S512x1536, .bf16⟩
  | .hbm, ⟨15, _⟩ => ⟨S1536, .f32⟩
  | .hbm, ⟨16, _⟩ => ⟨S1x1536, .f32⟩
  | .hbm, ⟨17, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1536, .bf16⟩
  | .local _ .vmem, ⟨5, _⟩ => ⟨S512x1536, .bf16⟩
  | .local _ .vmem, ⟨6, _⟩ => ⟨S1x1536, .f32⟩
  | .local _ .vmem, ⟨7, _⟩ => ⟨S512x512, .f32⟩
  | .local _ .vmem, ⟨8, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S512x512_S512x512_S512x512_S512x1536_d1 : Shape.Concatenates [S512x512, S512x512, S512x512] S512x1536 1
  bitsLt_bf16_f32 : FTy.bits .bf16 < FTy.bits .f32
  concatenates_S512_S512_S512_S1536_d0 : Shape.Concatenates [S512, S512, S512] S1536 0
  shapeCasts_S1536_S1x1536 : S1536.ShapeCasts S1x1536
  inb_S512x512_S512x512_0_0 : ∀ a, (![0, 0] : Fin 2 → Nat) a + S512x512.size a ≤ S512x512.size a
  h_S512x512 : 0 < S512x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  dot_S512x512_S512x1536_S512x1536_1_0_0_1_n_n_wf : DotDims.WF S512x512 S512x1536 S512x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .bf16 = 32 ∨ (Rect.block (s := S512x1536) S512x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .bf16 = 32 ∨ (Rect.block (s := S512x1536) S512x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S16384x512.size a
  hwx0_5 : ∀ i : grid0.Coords, EltTy.bits .f32 = 32 ∨ (Rect.block (s := S16384x512) S512x512.size (cc0_transform_5 i) (hinb0_5 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x512 : Shape := ⟨2, ![512, 512]⟩
abbrev S512 : Shape := ⟨1, ![512]⟩
abbrev S512x1536 : Shape := ⟨2, ![512, 1536]⟩
abbrev S16384x1536 : Shape := ⟨2, ![16384, 1536]⟩
abbrev S1x512 : Shape := ⟨2, ![1, 512]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x1536, .f32⟩
  | .hbm, ⟨12, _⟩ => ⟨S512x1536, .f32⟩
  | .hbm, ⟨13, _⟩ => ⟨S16384x1536, .f32⟩
  | .hbm, ⟨14, _⟩ => ⟨S16384x1536, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S1x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S1x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S1x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  concatenates_S512x512_S512x512_S512x512_S512x1536_d1 : Shape.Concatenates [S512x512, S512x512, S512x512] S512x1536 1
  slices_S16384x1536_S16384x512_0_0 : S16384x1536.Slices ![0, 0] S16384x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  slices_S16384x1536_S16384x512_0_512 : S16384x1536.Slices ![0, 512] S16384x512
  slices_S16384x1536_S16384x512_0_1024 : S16384x1536.Slices ![0, 1024] S16384x512
  dot_S16384x512_S512x1536_S16384x1536_1_0_0_1_n_n_wf : DotDims.WF S16384x512 S512x1536 S16384x1536 [1] [0] [0] [1] [] []

variable [Facts₀]

def dot_S16384x512_S512x1536_S16384x1536_1_0_0_1_n_n : DotDims S16384x512 S512x1536 S16384x1536 where
  lhsContracting := [1]
  rhsContracting := [0]
  lhsNonContracting := [0]
  rhsNonContracting := [1]
  lhsBatch := []
  rhsBatch := []
  wf := dot_S16384x512_S512x1536_S16384x1536_1_0_0_1_n_n_wf

class Facts : Prop extends Facts₀ where

variable [Facts]
-- ==== Proof.BitsLaunched.lean ====
/-
  The program up to its one launch, and the arrays the launch finds.

  Before the launch the host concatenates the three input-side weight matrices side by side into one
  512 x 1536 matrix, likewise the three hidden-side matrices, changes the format of both, and lays the three
  bias vectors end to end as one row of 1536. None of these six operations writes an argument array, so
  the launch finds every argument as it was given. The launch then walks the 32 row blocks of the batch:
  at block t it stages rows 512 t .. 512 t + 511 of the two activations, and the two wide matrices and the
  bias row whole (these three are staged once, at the first block, and kept).
-/
import proofs.«130231_j40003325395615_2_alg».proof.Proof.Gen.Kernel.Launch
import proofs.«130231_j40003325395615_2_alg».proof.Proof.Gen.Kernel.Skeleton
import proofs.«130231_j40003325395615_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The arrays at the launch -/

/-- What core `c`'s buffers hold when the launch begins: the given memory after the six host operations. -/
abbrev atLaunch (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations followed by the launch, which therefore starts from `atLaunch`. -/
theorem main_reaches_launch (𝒱₀ : Variants) :
    Pipeline.HMain (Ix := Unit) (Name := ℕ) (U := UR sig nD τ) (Lvl := ℕ) cfgs 0 defs₀ 𝒱₀ m (main (F := F)) (atLaunch m) :=
  Pipeline.hmain_prefix cfgs 0 defs₀ 𝒱₀ m main hostOps0 hostOps0_sub hostOps0_fresh main_chain

/-- A buffer none of the six host operations writes is found as given: the operations write the six
    intermediate buffers only. -/
theorem atLaunch_of_unwritten (c : Dev nD) (b : Ref sig .tc)
    (h0 : main_v0 ≠ b) (h1 : main_v1 ≠ b) (h2 : main_v2 ≠ b) (h3 : main_v3 ≠ b) (h4 : main_v4 ≠ b) (h5 : main_v5 ≠ b) :
    atLaunch m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes,
      Finset.mem_singleton]
    exact ⟨fun e => StableHlo.devRef_ne_of_ne h0 e.symm, fun e => StableHlo.devRef_ne_of_ne h1 e.symm,
      fun e => StableHlo.devRef_ne_of_ne h2 e.symm, fun e => StableHlo.devRef_ne_of_ne h3 e.symm,
      fun e => StableHlo.devRef_ne_of_ne h4 e.symm, fun e => StableHlo.devRef_ne_of_ne h5 e.symm⟩))

theorem atLaunch_arg0 (c : Dev nD) : atLaunch m c main_arg0 = m ((c : Thread nD τ).loc main_arg0) :=
  atLaunch_of_unwritten m c main_arg0 (by decide) (by decide) (by decide) (by decide) (by decide) (by decide)
theorem atLaunch_arg1 (c : Dev nD) : atLaunch m c main_arg1 = m ((c : Thread nD τ).loc main_arg1) :=
  atLaunch_of_unwritten m c main_arg1 (by decide) (by decide) (by decide) (by decide) (by decide) (by decide)
theorem atLaunch_arg2 (c : Dev nD) : atLaunch m c main_arg2 = m ((c : Thread nD τ).loc main_arg2) :=
  atLaunch_of_unwritten m c main_arg2 (by decide) (by decide) (by decide) (by decide) (by decide) (by decide)
theorem atLaunch_arg3 (c : Dev nD) : atLaunch m c main_arg3 = m ((c : Thread nD τ).loc main_arg3) :=
  atLaunch_of_unwritten m c main_arg3 (by decide) (by decide) (by decide) (by decide) (by decide) (by decide)
theorem atLaunch_arg4 (c : Dev nD) : atLaunch m c main_arg4 = m ((c : Thread nD τ).loc main_arg4) :=
  atLaunch_of_unwritten m c main_arg4 (by decide) (by decide) (by decide) (by decide) (by decide) (by decide)
theorem atLaunch_arg5 (c : Dev nD) : atLaunch m c main_arg5 = m ((c : Thread nD τ).loc main_arg5) :=
  atLaunch_of_unwritten m c main_arg5 (by decide) (by decide) (by decide) (by decide) (by decide) (by decide)
theorem atLaunch_arg6 (c : Dev nD) : atLaunch m c main_arg6 = m ((c : Thread nD τ).loc main_arg6) :=
  atLaunch_of_unwritten m c main_arg6 (by decide) (by decide) (by decide) (by decide) (by decide) (by decide)
theorem atLaunch_arg7 (c : Dev nD) : atLaunch m c main_arg7 = m ((c : Thread nD τ).loc main_arg7) :=
  atLaunch_of_unwritten m c main_arg7 (by decide) (by decide) (by decide) (by decide) (by decide) (by decide)
theorem atLaunch_arg8 (c : Dev nD) : atLaunch m c main_arg8 = m ((c : Thread nD τ).loc main_arg8) :=
  atLaunch_of_unwritten m c main_arg8 (by decide) (by decide) (by decide) (by decide) (by decide) (by decide)
theorem atLaunch_arg9 (c : Dev nD) : atLaunch m c main_arg9 = m ((c : Thread nD τ).loc main_arg9) :=
  atLaunch_of_unwritten m c main_arg9 (by decide) (by decide) (by decide) (by decide) (by decide) (by decide)
theorem atLaunch_arg10 (c : Dev nD) : atLaunch m c main_arg10 = m ((c : Thread nD τ).loc main_arg10) :=
  atLaunch_of_unwritten m c main_arg10 (by decide) (by decide) (by decide) (by decide) (by decide) (by decide)

/-! ## The staged blocks -/

/-- Window `w`'s block at row block `t`, read off its array as the launch finds it. -/
def blockAt (c : Dev nD) (w : Fin cfg0.W) (t : Fin cfg0.N) :
    ((cfg0.win w).xblock (cfg0.grid.coords t)).Idx → Elt F (cfg0.win w).elt :=
  ((cfg0.win w).blk t).view.read (Elt F) (atLaunch m c (Pipeline.arrRef spec0 w))

end Cert.Kernel.Launched

end
-- ==== Proof.BitsCell.lean ====
/-
  One row block of the gated recurrent cell, and the whole launch.

  At a row block the kernel reads its five staged inputs whole — 512 rows of x, 512 rows of h, the two
  512 x 1536 weight matrices and the bias row — and overwrites the 512 x 512 output block whole with the
  new hidden state: with gi = x · Wi and gh = h · Wh (both 512 x 1536, read as three column panels r, z, n),
  r = σ(gi_r + gh_r + b_r), z = σ(gi_z + gh_z + b_z), n = tanh(gi_n + r ⊙ gh_n + b_n), out = (1 − z) ⊙ n + z ⊙ h.
  Nothing else is touched. Hence the launch terminates without fault; each output row block ends holding
  that function of the inputs' row blocks; every argument array ends as it began.
-/
import proofs.«130231_j40003325395615_2_alg».proof.Proof.BitsLaunched
import Idealize.ShloMosaic.Lib.Pipeline.Value

set_option maxRecDepth 16384

noncomputable section

namespace Cert.Kernel.Launched

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One row block -/

/-- The offsets of every access of the body are zero: each is of a whole staging buffer. -/
theorem zero_offsets : (![0, 0] : Fin 2 → Nat) = fun _ => 0 := by
  funext a; fin_cases a <;> rfl

/-- The new hidden state of one row block, from the five staged inputs read whole. -/
def cell (x : Vec F S512x512 .f32) (h : Vec F S512x512 .f32) (wi : Vec F S512x1536 .bf16) (wh : Vec F S512x1536 .bf16)
    (b : Vec F S1x1536 .f32) : Vec F S512x512 .f32 :=
  k0_pay1 x h wi wh b

/-- The body on whole staging buffers: given the five inputs' contents and any contents of the output buffer, it
    runs without fault, leaves the inputs as they were and the output buffer holding `cell` of the inputs. -/
theorem body_runs (c : Dev nD) (E : Set ℕ) (i : grid0.Coords)
    (arg1 : Memref sig .tc .vmem S512x512 .f32) (harg1 : arg1.IsWhole)
    (arg2 : Memref sig .tc .vmem S512x512 .f32) (harg2 : arg2.IsWhole)
    (arg3 : Memref sig .tc .vmem S512x1536 .bf16) (harg3 : arg3.IsWhole)
    (arg4 : Memref sig .tc .vmem S512x1536 .bf16) (harg4 : arg4.IsWhole)
    (arg5 : Memref sig .tc .vmem S1x1536 .f32) (harg5 : arg5.IsWhole)
    (arg6 : Memref sig .tc .vmem S512x512 .f32) (harg6 : arg6.IsWhole)
    (x : Vec F S512x512 .f32) (h : Vec F S512x512 .f32) (wi : Vec F S512x1536 .bf16) (wh : Vec F S512x1536 .bf16)
    (b : Vec F S1x1536 .f32) (K : PUnit → sProp 𝕄) :
    iprop(owns (c : Thread nD τ) arg1 fullShare x ∗ owns (c : Thread nD τ) arg2 fullShare h
        ∗ owns (c : Thread nD τ) arg3 fullShare wi ∗ owns (c : Thread nD τ) arg4 fullShare wh
        ∗ owns (c : Thread nD τ) arg5 fullShare b ∗ (∃ d, owns (c : Thread nD τ) arg6 fullShare d)
        ∗ (iprop(owns (c : Thread nD τ) arg1 fullShare x ∗ owns (c : Thread nD τ) arg2 fullShare h
            ∗ owns (c : Thread nD τ) arg3 fullShare wi ∗ owns (c : Thread nD τ) arg4 fullShare wh
            ∗ owns (c : Thread nD τ) arg5 fullShare b
            ∗ owns (c : Thread nD τ) arg6 fullShare (cell x h wi wh b)) -∗ K ⟨⟩))
      ⊢ wp frame (wpE (defs₀ (F := F)) Variants.none c none) E
          (cc0__gru_kernel i arg1 harg1 arg2 harg2 arg3 harg3 arg4 harg4 arg5 harg5 arg6 harg6) K := by
  simp only [cc0__gru_kernel_eq_skeleton]; unfold cc0__gru_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (fun y => ⟨_, List.mem_singleton_self _, View.mem_set_unit_zero zero_offsets inb_S512x512_S512x512_0_0 y⟩),
    View.canon_unit_zero zero_offsets]
  simp only [View.readAt_eq_ld, View.ld_unit_zero (S := S512x512) zero_offsets,
    View.ld_unit_zero (S := S512x1536) zero_offsets, View.ld_unit_zero (S := S1x1536) zero_offsets]
  rfl

/-! ## The launch's proof data -/

/-- Row block by row block: the arrays are those the launch finds; after the body at block `t` every input's
    staging buffer still holds its block and the output's holds `cell` of the five input blocks; the body uses
    nothing beyond its windows; nothing is owed; every share is whole. -/
def dats (_ : Fin 1) (c : Dev nD) : Dat τ (Elt F) Unit ℕ (UR sig nD τ) ℕ cfg0 c where
  A w := atLaunch m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => cell (blockAt m c 0 t) (blockAt m c 1 t) (blockAt m c 2 t) (blockAt m c 3 t) (blockAt m c 4 t)
  Φ _ := Pipeline.ΦA spec0 c
  q _ := fullShare
  owed _ := 0

theorem dats_A (c : Dev nD) (w : Fin cfg0.W) : (dats m 0 c).A w = atLaunch m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) :
    (dats m 0 c).after 5 t = cell (blockAt m c 0 t) (blockAt m c 1 t) (blockAt m c 2 t) (blockAt m c 3 t) (blockAt m c 4 t) := by
  dsimp only [dats]

/-! An input's staging buffer holds the window's block at every row block, whether it was staged there or kept
    from the block before (the weights and the bias are staged once: their block index never moves). -/
theorem before_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [dats_A]; try rfl) t d).trans
    (by unfold Dat.fetched Dat.blockOf blockAt; rw [dats_A]; try rfl)
theorem before_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [dats_A]; try rfl) t d).trans
    (by unfold Dat.fetched Dat.blockOf blockAt; rw [dats_A]; try rfl)
theorem before_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [dats_A]; try rfl) t d).trans
    (by unfold Dat.fetched Dat.blockOf blockAt; rw [dats_A]; try rfl)
theorem before_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [dats_A]; try rfl) t d).trans
    (by unfold Dat.fetched Dat.blockOf blockAt; rw [dats_A]; try rfl)
theorem before_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [dats_A]; try rfl) t d).trans
    (by unfold Dat.fetched Dat.blockOf blockAt; rw [dats_A]; try rfl)

/-! ## The body at any row block -/

/-- What the body is handed at row block `t`, window by window, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The inputs' buffers hold their blocks, so `body_runs` applies; the rest passes through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_everywhere (c : Dev nD) :
    BodyObligation (dats (F := F) m 0 c) (defs₀ (F := F)) Variants.none () Set.univ := fun t => by
  rw [bigSep_W0, bigSep_W0]
  exact body_at m c t

/-! ## The launch, and the arguments after it -/

set_option backward.isDefEq.respectTransparency.types false in
/-- From any memory with zero counters every weakly fair execution of the program terminates without fault; at the
    end every windowed array holds what the row blocks' write-backs make of it, and every other unscoped buffer what
    the launch found. -/
theorem launch_runs : θ_run defs (onTc (τ := τ) (main (F := F))) (s₀ m ρ) (Pipeline.FramePost cfgs (dats m) 0 (atLaunch m)) :=
  Pipeline.θ_run_frame cfgs (dats m) (0 : Fin 1) launch0 defs₀ Variants.none m ρ main
    (hbody := fun c => (body_everywhere m c).loose) (hshare := fun c => (dats m 0 c).share_full fun _ => rfl)
    (howed := fun _ _ => rfl) (V := atLaunch m) (hmain := main_reaches_launch m Variants.none) (hA := dats_A m)
    (hΦ := fun _ _ => rfl)

/-- Every argument array ends as it began: the two activations are input windows (an input array is never written),
    the nine parameters are touched by no window and were found as given. -/
theorem arguments_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).1 0).trans (((dats m 0 c).arrAt_in 0 rfl _).trans ((dats_A m c 0).trans (atLaunch_arg0 m c))),
      ((h c).1 1).trans (((dats m 0 c).arrAt_in 1 rfl _).trans ((dats_A m c 1).trans (atLaunch_arg1 m c))),
      ((h c).2 main_arg2 (Pipeline.mem_restRefs_of main_arg2 (by decide) (by decide))).trans (atLaunch_arg2 m c),
      ((h c).2 main_arg3 (Pipeline.mem_restRefs_of main_arg3 (by decide) (by decide))).trans (atLaunch_arg3 m c),
      ((h c).2 main_arg4 (Pipeline.mem_restRefs_of main_arg4 (by decide) (by decide))).trans (atLaunch_arg4 m c),
      ((h c).2 main_arg5 (Pipeline.mem_restRefs_of main_arg5 (by decide) (by decide))).trans (atLaunch_arg5 m c),
      ((h c).2 main_arg6 (Pipeline.mem_restRefs_of main_arg6 (by decide) (by decide))).trans (atLaunch_arg6 m c),
      ((h c).2 main_arg7 (Pipeline.mem_restRefs_of main_arg7 (by decide) (by decide))).trans (atLaunch_arg7 m c),
      ((h c).2 main_arg8 (Pipeline.mem_restRefs_of main_arg8 (by decide) (by decide))).trans (atLaunch_arg8 m c),
      ((h c).2 main_arg9 (Pipeline.mem_restRefs_of main_arg9 (by decide) (by decide))).trans (atLaunch_arg9 m c),
      ((h c).2 main_arg10 (Pipeline.mem_restRefs_of main_arg10 (by decide) (by decide))).trans (atLaunch_arg10 m c)⟩)
    (launch_runs m ρ)

end Cert.Kernel.Launched

end
-- ==== Proof.IdealLaunched.lean ====
/-
  The program up to its one launch, and the arrays the launch finds.

  Before the launch the host concatenates the three input-side weight matrices side by side into one
  512 x 1536 matrix, likewise the three hidden-side matrices, changes the format of both, and lays the three
  bias vectors end to end as one row of 1536. None of these six operations writes an argument array, so
  the launch finds every argument as it was given. The launch then walks the 32 row blocks of the batch:
  at block t it stages rows 512 t .. 512 t + 511 of the two activations, and the two wide matrices and the
  bias row whole (these three are staged once, at the first block, and kept).
-/
import proofs.«130231_j40003325395615_2_alg».proof.Proof.Gen.KernelIdeal.Launch
import proofs.«130231_j40003325395615_2_alg».proof.Proof.Gen.KernelIdeal.Skeleton
import proofs.«130231_j40003325395615_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The arrays at the launch -/

/-- What core `c`'s buffers hold when the launch begins: the given memory after the six host operations. -/
abbrev atLaunch (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations followed by the launch, which therefore starts from `atLaunch`. -/
theorem main_reaches_launch (𝒱₀ : Variants) :
    Pipeline.HMain (Ix := Unit) (Name := ℕ) (U := UR sig nD τ) (Lvl := ℕ) cfgs 0 defs₀ 𝒱₀ m (main (F := F)) (atLaunch m) :=
  Pipeline.hmain_prefix cfgs 0 defs₀ 𝒱₀ m main hostOps0 hostOps0_sub hostOps0_fresh main_chain

/-- A buffer none of the six host operations writes is found as given: the operations write the six
    intermediate buffers only. -/
theorem atLaunch_of_unwritten (c : Dev nD) (b : Ref sig .tc)
    (h0 : main_v0 ≠ b) (h1 : main_v1 ≠ b) (h2 : main_v2 ≠ b) (h3 : main_v3 ≠ b) (h4 : main_v4 ≠ b) (h5 : main_v5 ≠ b) :
    atLaunch m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes,
      Finset.mem_singleton]
    exact ⟨fun e => StableHlo.devRef_ne_of_ne h0 e.symm, fun e => StableHlo.devRef_ne_of_ne h1 e.symm,
      fun e => StableHlo.devRef_ne_of_ne h2 e.symm, fun e => StableHlo.devRef_ne_of_ne h3 e.symm,
      fun e => StableHlo.devRef_ne_of_ne h4 e.symm, fun e => StableHlo.devRef_ne_of_ne h5 e.symm⟩))

theorem atLaunch_arg0 (c : Dev nD) : atLaunch m c main_arg0 = m ((c : Thread nD τ).loc main_arg0) :=
  atLaunch_of_unwritten m c main_arg0 (by decide) (by decide) (by decide) (by decide) (by decide) (by decide)
theorem atLaunch_arg1 (c : Dev nD) : atLaunch m c main_arg1 = m ((c : Thread nD τ).loc main_arg1) :=
  atLaunch_of_unwritten m c main_arg1 (by decide) (by decide) (by decide) (by decide) (by decide) (by decide)
theorem atLaunch_arg2 (c : Dev nD) : atLaunch m c main_arg2 = m ((c : Thread nD τ).loc main_arg2) :=
  atLaunch_of_unwritten m c main_arg2 (by decide) (by decide) (by decide) (by decide) (by decide) (by decide)
theorem atLaunch_arg3 (c : Dev nD) : atLaunch m c main_arg3 = m ((c : Thread nD τ).loc main_arg3) :=
  atLaunch_of_unwritten m c main_arg3 (by decide) (by decide) (by decide) (by decide) (by decide) (by decide)
theorem atLaunch_arg4 (c : Dev nD) : atLaunch m c main_arg4 = m ((c : Thread nD τ).loc main_arg4) :=
  atLaunch_of_unwritten m c main_arg4 (by decide) (by decide) (by decide) (by decide) (by decide) (by decide)
theorem atLaunch_arg5 (c : Dev nD) : atLaunch m c main_arg5 = m ((c : Thread nD τ).loc main_arg5) :=
  atLaunch_of_unwritten m c main_arg5 (by decide) (by decide) (by decide) (by decide) (by decide) (by decide)
theorem atLaunch_arg6 (c : Dev nD) : atLaunch m c main_arg6 = m ((c : Thread nD τ).loc main_arg6) :=
  atLaunch_of_unwritten m c main_arg6 (by decide) (by decide) (by decide) (by decide) (by decide) (by decide)
theorem atLaunch_arg7 (c : Dev nD) : atLaunch m c main_arg7 = m ((c : Thread nD τ).loc main_arg7) :=
  atLaunch_of_unwritten m c main_arg7 (by decide) (by decide) (by decide) (by decide) (by decide) (by decide)
theorem atLaunch_arg8 (c : Dev nD) : atLaunch m c main_arg8 = m ((c : Thread nD τ).loc main_arg8) :=
  atLaunch_of_unwritten m c main_arg8 (by decide) (by decide) (by decide) (by decide) (by decide) (by decide)
theorem atLaunch_arg9 (c : Dev nD) : atLaunch m c main_arg9 = m ((c : Thread nD τ).loc main_arg9) :=
  atLaunch_of_unwritten m c main_arg9 (by decide) (by decide) (by decide) (by decide) (by decide) (by decide)
theorem atLaunch_arg10 (c : Dev nD) : atLaunch m c main_arg10 = m ((c : Thread nD τ).loc main_arg10) :=
  atLaunch_of_unwritten m c main_arg10 (by decide) (by decide) (by decide) (by decide) (by decide) (by decide)

/-! ## The staged blocks -/

/-- Window `w`'s block at row block `t`, read off its array as the launch finds it. -/
def blockAt (c : Dev nD) (w : Fin cfg0.W) (t : Fin cfg0.N) :
    ((cfg0.win w).xblock (cfg0.grid.coords t)).Idx → Elt F (cfg0.win w).elt :=
  ((cfg0.win w).blk t).view.read (Elt F) (atLaunch m c (Pipeline.arrRef spec0 w))

end Cert.KernelIdeal.Launched

end
-- ==== Proof.IdealCell.lean ====
/-
  One row block of the gated recurrent cell, and the whole launch.

  At a row block the kernel reads its five staged inputs whole — 512 rows of x, 512 rows of h, the two
  512 x 1536 weight matrices and the bias row — and overwrites the 512 x 512 output block whole with the
  new hidden state: with gi = x · Wi and gh = h · Wh (both 512 x 1536, read as three column panels r, z, n),
  r = σ(gi_r + gh_r + b_r), z = σ(gi_z + gh_z + b_z), n = tanh(gi_n + r ⊙ gh_n + b_n), out = (1 − z) ⊙ n + z ⊙ h.
  Nothing else is touched. Hence the launch terminates without fault; each output row block ends holding
  that function of the inputs' row blocks; every argument array ends as it began.
-/
import proofs.«130231_j40003325395615_2_alg».proof.Proof.IdealLaunched
import Idealize.ShloMosaic.Lib.Pipeline.Value

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One row block -/

/-- The offsets of every access of the body are zero: each is of a whole staging buffer. -/
theorem zero_offsets : (![0, 0] : Fin 2 → Nat) = fun _ => 0 := by
  funext a; fin_cases a <;> rfl

/-- The new hidden state of one row block, from the five staged inputs read whole. -/
def cell (x : Vec F S512x512 .f32) (h : Vec F S512x512 .f32) (wi : Vec F S512x1536 .bf16) (wh : Vec F S512x1536 .bf16)
    (b : Vec F S1x1536 .f32) : Vec F S512x512 .f32 :=
  k0_pay1 x h wi wh b

/-- The body on whole staging buffers: given the five inputs' contents and any contents of the output buffer, it
    runs without fault, leaves the inputs as they were and the output buffer holding `cell` of the inputs. -/
theorem body_runs (c : Dev nD) (E : Set ℕ) (i : grid0.Coords)
    (arg1 : Memref sig .tc .vmem S512x512 .f32) (harg1 : arg1.IsWhole)
    (arg2 : Memref sig .tc .vmem S512x512 .f32) (harg2 : arg2.IsWhole)
    (arg3 : Memref sig .tc .vmem S512x1536 .bf16) (harg3 : arg3.IsWhole)
    (arg4 : Memref sig .tc .vmem S512x1536 .bf16) (harg4 : arg4.IsWhole)
    (arg5 : Memref sig .tc .vmem S1x1536 .f32) (harg5 : arg5.IsWhole)
    (arg6 : Memref sig .tc .vmem S512x512 .f32) (harg6 : arg6.IsWhole)
    (x : Vec F S512x512 .f32) (h : Vec F S512x512 .f32) (wi : Vec F S512x1536 .bf16) (wh : Vec F S512x1536 .bf16)
    (b : Vec F S1x1536 .f32) (K : PUnit → sProp 𝕄) :
    iprop(owns (c : Thread nD τ) arg1 fullShare x ∗ owns (c : Thread nD τ) arg2 fullShare h
        ∗ owns (c : Thread nD τ) arg3 fullShare wi ∗ owns (c : Thread nD τ) arg4 fullShare wh
        ∗ owns (c : Thread nD τ) arg5 fullShare b ∗ (∃ d, owns (c : Thread nD τ) arg6 fullShare d)
        ∗ (iprop(owns (c : Thread nD τ) arg1 fullShare x ∗ owns (c : Thread nD τ) arg2 fullShare h
            ∗ owns (c : Thread nD τ) arg3 fullShare wi ∗ owns (c : Thread nD τ) arg4 fullShare wh
            ∗ owns (c : Thread nD τ) arg5 fullShare b
            ∗ owns (c : Thread nD τ) arg6 fullShare (cell x h wi wh b)) -∗ K ⟨⟩))
      ⊢ wp frame (wpE (defs₀ (F := F)) Variants.none c none) E
          (cc0__gru_kernel i arg1 harg1 arg2 harg2 arg3 harg3 arg4 harg4 arg5 harg5 arg6 harg6) K := by
  simp only [cc0__gru_kernel_eq_skeleton]; unfold cc0__gru_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (fun y => ⟨_, List.mem_singleton_self _, View.mem_set_unit_zero zero_offsets inb_S512x512_S512x512_0_0 y⟩),
    View.canon_unit_zero zero_offsets]
  simp only [View.readAt_eq_ld, View.ld_unit_zero (S := S512x512) zero_offsets,
    View.ld_unit_zero (S := S512x1536) zero_offsets, View.ld_unit_zero (S := S1x1536) zero_offsets]
  rfl

/-! ## The launch's proof data -/

/-- Row block by row block: the arrays are those the launch finds; after the body at block `t` every input's
    staging buffer still holds its block and the output's holds `cell` of the five input blocks; the body uses
    nothing beyond its windows; nothing is owed; every share is whole. -/
def dats (_ : Fin 1) (c : Dev nD) : Dat τ (Elt F) Unit ℕ (UR sig nD τ) ℕ cfg0 c where
  A w := atLaunch m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => cell (blockAt m c 0 t) (blockAt m c 1 t) (blockAt m c 2 t) (blockAt m c 3 t) (blockAt m c 4 t)
  Φ _ := Pipeline.ΦA spec0 c
  q _ := fullShare
  owed _ := 0

theorem dats_A (c : Dev nD) (w : Fin cfg0.W) : (dats m 0 c).A w = atLaunch m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) :
    (dats m 0 c).after 5 t = cell (blockAt m c 0 t) (blockAt m c 1 t) (blockAt m c 2 t) (blockAt m c 3 t) (blockAt m c 4 t) := by
  dsimp only [dats]

/-! An input's staging buffer holds the window's block at every row block, whether it was staged there or kept
    from the block before (the weights and the bias are staged once: their block index never moves). -/
theorem before_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [dats_A]; try rfl) t d).trans
    (by unfold Dat.fetched Dat.blockOf blockAt; rw [dats_A]; try rfl)
theorem before_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [dats_A]; try rfl) t d).trans
    (by unfold Dat.fetched Dat.blockOf blockAt; rw [dats_A]; try rfl)
theorem before_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [dats_A]; try rfl) t d).trans
    (by unfold Dat.fetched Dat.blockOf blockAt; rw [dats_A]; try rfl)
theorem before_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [dats_A]; try rfl) t d).trans
    (by unfold Dat.fetched Dat.blockOf blockAt; rw [dats_A]; try rfl)
theorem before_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [dats_A]; try rfl) t d).trans
    (by unfold Dat.fetched Dat.blockOf blockAt; rw [dats_A]; try rfl)

/-! ## The body at any row block -/

/-- What the body is handed at row block `t`, window by window, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The inputs' buffers hold their blocks, so `body_runs` applies; the rest passes through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_everywhere (c : Dev nD) :
    BodyObligation (dats (F := F) m 0 c) (defs₀ (F := F)) Variants.none () Set.univ := fun t => by
  rw [bigSep_W0, bigSep_W0]
  exact body_at m c t

/-! ## The launch, and the arguments after it -/

set_option backward.isDefEq.respectTransparency.types false in
/-- From any memory with zero counters every weakly fair execution of the program terminates without fault; at the
    end every windowed array holds what the row blocks' write-backs make of it, and every other unscoped buffer what
    the launch found. -/
theorem launch_runs : θ_run defs (onTc (τ := τ) (main (F := F))) (s₀ m ρ) (Pipeline.FramePost cfgs (dats m) 0 (atLaunch m)) :=
  Pipeline.θ_run_frame cfgs (dats m) (0 : Fin 1) launch0 defs₀ Variants.none m ρ main
    (hbody := fun c => (body_everywhere m c).loose) (hshare := fun c => (dats m 0 c).share_full fun _ => rfl)
    (howed := fun _ _ => rfl) (V := atLaunch m) (hmain := main_reaches_launch m Variants.none) (hA := dats_A m)
    (hΦ := fun _ _ => rfl)

/-- Every argument array ends as it began: the two activations are input windows (an input array is never written),
    the nine parameters are touched by no window and were found as given. -/
theorem arguments_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).1 0).trans (((dats m 0 c).arrAt_in 0 rfl _).trans ((dats_A m c 0).trans (atLaunch_arg0 m c))),
      ((h c).1 1).trans (((dats m 0 c).arrAt_in 1 rfl _).trans ((dats_A m c 1).trans (atLaunch_arg1 m c))),
      ((h c).2 main_arg2 (Pipeline.mem_restRefs_of main_arg2 (by decide) (by decide))).trans (atLaunch_arg2 m c),
      ((h c).2 main_arg3 (Pipeline.mem_restRefs_of main_arg3 (by decide) (by decide))).trans (atLaunch_arg3 m c),
      ((h c).2 main_arg4 (Pipeline.mem_restRefs_of main_arg4 (by decide) (by decide))).trans (atLaunch_arg4 m c),
      ((h c).2 main_arg5 (Pipeline.mem_restRefs_of main_arg5 (by decide) (by decide))).trans (atLaunch_arg5 m c),
      ((h c).2 main_arg6 (Pipeline.mem_restRefs_of main_arg6 (by decide) (by decide))).trans (atLaunch_arg6 m c),
      ((h c).2 main_arg7 (Pipeline.mem_restRefs_of main_arg7 (by decide) (by decide))).trans (atLaunch_arg7 m c),
      ((h c).2 main_arg8 (Pipeline.mem_restRefs_of main_arg8 (by decide) (by decide))).trans (atLaunch_arg8 m c),
      ((h c).2 main_arg9 (Pipeline.mem_restRefs_of main_arg9 (by decide) (by decide))).trans (atLaunch_arg9 m c),
      ((h c).2 main_arg10 (Pipeline.mem_restRefs_of main_arg10 (by decide) (by decide))).trans (atLaunch_arg10 m c)⟩)
    (launch_runs m ρ)

end Cert.KernelIdeal.Launched

end
-- ==== Proof.GatedCell.lean ====
/-
  The gated recurrent cell as one function of its arguments, entry by entry, on the extended reals.

  For a batch row i and a hidden unit q, with x_i and h_i the i-th rows of the two activations and, for each of
  the three gates g (reset, update, candidate), wi_g and wh_g column 512 g + q of the two 512 x 1536 weight
  matrices and b_g entry q of the gate's bias:

      r = σ(x_i · wi_0 + h_i · wh_0 + b_0)
      z = σ(x_i · wi_1 + h_i · wh_1 + b_1)
      n = tanh(x_i · wi_2 + r (h_i · wh_2) + b_2)
      out = (1 − z) n + z h_iq

  where σ s = 1 / (1 + e^(−s)) with the conventions of the extended reals (σ(−∞) = 0, σ(+∞) = 1) and each
  dot product is a sum of 512 products.
-/
import Idealize.ShloMosaic.PureOps.Ideal
import Idealize.ShloMosaic.PureOps.Ideal.Laws
import Idealize.ShloMosaic.Lib.ValueIdx

noncomputable section

namespace Cert.GatedCell

open Idealize.ShloMosaic Idealize.ShloMosaic.ValueIdx

/-- The float word of `1.0` denotes one: sign 0, biased exponent 127, zero mantissa. -/
theorem word_one : Ideal.ofBits .f32 0x3F800000#32 = 1 := by
  simp [Ideal.ofBits, Ideal.ieee, -EReal.coe_mul]; norm_num

/-- The logistic function spelt out with the word of `1.0` in both places is the logistic function. -/
theorem logistic_spelt (s : EReal) :
    Ideal.div (Ideal.ofBits .f32 0x3F800000#32) (Ideal.ofBits .f32 0x3F800000#32 + Ideal.exp (-s)) = Ideal.logistic s := by
  rw [word_one]; rfl

/-- One entry of the new hidden state from the row of `x`, the row of `h`, the three gates' columns of the two
    weight matrices, the three gates' bias entries, and the old state's entry. -/
def entry (xr hr : Fin 512 → EReal) (wi wh : Fin 3 → Fin 512 → EReal) (b : Fin 3 → EReal) (hq : EReal) : EReal :=
  let r := Ideal.logistic ((∑ k, xr k * wi 0 k) + (∑ k, hr k * wh 0 k) + b 0)
  let z := Ideal.logistic ((∑ k, xr k * wi 1 k) + (∑ k, hr k * wh 1 k) + b 1)
  let n := Ideal.tanh ((∑ k, xr k * wi 2 k) + r * (∑ k, hr k * wh 2 k) + b 2)
  (1 - z) * n + z * hq

/-- Column `512 g + q` of a 1536-wide matrix: gate `g`'s panel, unit `q`. -/
def col (g : Fin 3) (q : Fin 512) : Fin 1536 := ⟨512 * g.val + q.val, by have := g.isLt; have := q.isLt; omega⟩

@[simp] theorem col_val (g : Fin 3) (q : Fin 512) : (col g q).val = 512 * g.val + q.val := rfl

/-- The whole new hidden state, 16384 x 512, from the two activations, the two 512 x 1536 weight matrices and the
    three bias vectors. -/
def newState (x h : (⟨2, ![16384, 512]⟩ : Shape).Idx → EReal) (Wi Wh : (⟨2, ![512, 1536]⟩ : Shape).Idx → EReal)
    (b : Fin 3 → (⟨1, ![512]⟩ : Shape).Idx → EReal) : (⟨2, ![16384, 512]⟩ : Shape).Idx → EReal := fun i =>
  entry (fun k => x (ix2 (i 0) k)) (fun k => h (ix2 (i 0) k))
    (fun g k => Wi (ix2 k (col g (i 1)))) (fun g k => Wh (ix2 k (col g (i 1))))
    (fun g => b g (ix1 (i 1))) (h i)

/-- Three gates' bias vectors as one family indexed by the gate. -/
def gateOf (a b d : (⟨1, ![512]⟩ : Shape).Idx → EReal) : Fin 3 → (⟨1, ![512]⟩ : Shape).Idx → EReal := fun g =>
  match g with
  | ⟨0, _⟩ => a
  | ⟨1, _⟩ => b
  | ⟨2, _⟩ => d

end Cert.GatedCell

end
-- ==== Proof.CellEntry.lean ====
/-
  One entry of the body's result.

  The body's arithmetic, read at row p and column q of its 512 x 512 output block: each of its two matrix
  products into a zero accumulator is, at row p and column c, the sum over k of x(p, k) · w(k, c) (a change of float
  format is the identity on the extended reals); panel g of a 1536-wide value at column q is the value at column
  512 g + q; the bias row broadcast down the rows is the bias row at the column. The elementwise operations are
  those of the cell's formula, so the entry is the cell's formula over row p of the two activation blocks, the
  columns 512 g + q of the two weight matrices and the entries 512 g + q of the bias row.
-/
import proofs.«130231_j40003325395615_2_alg».proof.Proof.Gen.KernelIdeal.Skeleton
import proofs.«130231_j40003325395615_2_alg».proof.Proof.GatedCell
import Idealize.ShloMosaic.Lib.Pipeline.Value
import Idealize.ShloMosaic.Lib.ValueIdx
import Idealize.ShloMosaic.PureOps.Ideal.Laws

set_option maxRecDepth 16384

noncomputable section

namespace Cert.KernelIdeal.CellValue

open Cert.KernelIdeal Cert.KernelIdeal.Gen Cert.GatedCell
open Idealize.ShloMosaic Idealize.ShloMosaic.ValueIdx

/-! ## The three column panels -/

theorem panel_reset {α : Type} (v : S512x1536.Idx → α) (p q : Fin 512) :
    extractStridedSlice S512x512 ![0, 0] v slices_S512x1536_o0_0_S512x512 (ix2 p q) = v (ix2 p (col 0 q)) :=
  extractStridedSlice_apply ![0, 0] v slices_S512x1536_o0_0_S512x512 (ix2 p q) (ix2 p (col 0 q)) (fun a => match a with
    | ⟨0, _⟩ => by show p.val = 0 + p.val; omega
    | ⟨1, _⟩ => by show 512 * 0 + q.val = 0 + q.val; omega)

theorem panel_update {α : Type} (v : S512x1536.Idx → α) (p q : Fin 512) :
    extractStridedSlice S512x512 ![0, 512] v slices_S512x1536_o0_512_S512x512 (ix2 p q) = v (ix2 p (col 1 q)) :=
  extractStridedSlice_apply ![0, 512] v slices_S512x1536_o0_512_S512x512 (ix2 p q) (ix2 p (col 1 q)) (fun a => match a with
    | ⟨0, _⟩ => by show p.val = 0 + p.val; omega
    | ⟨1, _⟩ => by show 512 * 1 + q.val = 512 + q.val; omega)

theorem panel_candidate {α : Type} (v : S512x1536.Idx → α) (p q : Fin 512) :
    extractStridedSlice S512x512 ![0, 1024] v slices_S512x1536_o0_1024_S512x512 (ix2 p q) = v (ix2 p (col 2 q)) :=
  extractStridedSlice_apply ![0, 1024] v slices_S512x1536_o0_1024_S512x512 (ix2 p q) (ix2 p (col 2 q)) (fun a => match a with
    | ⟨0, _⟩ => by show p.val = 0 + p.val; omega
    | ⟨1, _⟩ => by show 512 * 2 + q.val = 1024 + q.val; omega)

/-! ## A matrix product at an entry -/

/-- The product's operand indices at an output entry `i` and a contraction index `r`, coordinate by coordinate: the
    left operand is read at row `i 0`, column `r`; the right at row `r`, column `i 1`. -/
theorem left_row (i : S512x1536.Idx) (r : dot_S512x512_S512x1536_S512x1536_1_0_0_1_n_n.contr.Idx) :
    (dot_S512x512_S512x1536_S512x1536_1_0_0_1_n_n.lhsIdx i r 0).val = (i 0).val := by
  unfold DotDims.lhsIdx
  rw [dif_neg (show ¬(0 : Fin S512x512.rank) ∈ dot_S512x512_S512x1536_S512x1536_1_0_0_1_n_n.lhsBatch by decide),
    dif_pos (show (0 : Fin S512x512.rank) ∈ dot_S512x512_S512x1536_S512x1536_1_0_0_1_n_n.lhsNonContracting by decide)]
  rfl
theorem left_col (i : S512x1536.Idx) (r : dot_S512x512_S512x1536_S512x1536_1_0_0_1_n_n.contr.Idx) :
    (dot_S512x512_S512x1536_S512x1536_1_0_0_1_n_n.lhsIdx i r 1).val = (r ⟨0, by decide⟩).val :=
  dot_S512x512_S512x1536_S512x1536_1_0_0_1_n_n.lhsIdx_val_of_single rfl i r
theorem right_row (i : S512x1536.Idx) (r : dot_S512x512_S512x1536_S512x1536_1_0_0_1_n_n.contr.Idx) :
    (dot_S512x512_S512x1536_S512x1536_1_0_0_1_n_n.rhsIdx i r 0).val = (r ⟨0, by decide⟩).val :=
  dot_S512x512_S512x1536_S512x1536_1_0_0_1_n_n.rhsIdx_val_of_single rfl i r
theorem right_col (i : S512x1536.Idx) (r : dot_S512x512_S512x1536_S512x1536_1_0_0_1_n_n.contr.Idx) :
    (dot_S512x512_S512x1536_S512x1536_1_0_0_1_n_n.rhsIdx i r 1).val = (i 1).val := by
  unfold DotDims.rhsIdx
  rw [dif_neg (show ¬(1 : Fin S512x1536.rank) ∈ dot_S512x512_S512x1536_S512x1536_1_0_0_1_n_n.rhsBatch by decide),
    dif_pos (show (1 : Fin S512x1536.rank) ∈ dot_S512x512_S512x1536_S512x1536_1_0_0_1_n_n.rhsNonContracting by decide)]
  rfl

/-- The body's matrix product of an activation block with a weight matrix, into zeros, at an entry: the sum over
    the 512 contraction positions of the products. -/
theorem product_apply (x : FVec Ideal S512x512 .f32) (w : FVec Ideal S512x1536 .bf16) (p : Fin 512) (c : Fin 1536) :
    matmul (F := Ideal) dot_S512x512_S512x1536_S512x1536_1_0_0_1_n_n none (truncf (F := Ideal) .bf16 x bitsLt_bf16_f32)
        (shapeCast S512x1536 w shapeCasts_S512x1536_S512x1536) (constant (F := Ideal) S512x1536 .f32 0x00000000#32) (ix2 p c)
      = ∑ k : Fin 512, x (ix2 p k) * w (ix2 k c) := by
  rw [shapeCast_self]
  simp only [matmul]
  rw [Ideal.matmul_constant_zero_apply, ← Equiv.sum_comp (contrEquiv1 dot_S512x512_S512x1536_S512x1536_1_0_0_1_n_n 512 rfl rfl).symm]
  refine Finset.sum_congr rfl fun k _ => ?_
  have hk := contrEquiv1_symm_val dot_S512x512_S512x1536_S512x1536_1_0_0_1_n_n 512 rfl rfl k
  have el : dot_S512x512_S512x1536_S512x1536_1_0_0_1_n_n.lhsIdx (ix2 p c) ((contrEquiv1 dot_S512x512_S512x1536_S512x1536_1_0_0_1_n_n 512 rfl rfl).symm k) = ix2 p k :=
    funext fun a => Fin.ext (by
      match a with
      | ⟨0, _⟩ => exact left_row _ _
      | ⟨1, _⟩ => exact (left_col _ _).trans hk)
  have er : dot_S512x512_S512x1536_S512x1536_1_0_0_1_n_n.rhsIdx (ix2 p c) ((contrEquiv1 dot_S512x512_S512x1536_S512x1536_1_0_0_1_n_n 512 rfl rfl).symm k) = ix2 k c :=
    funext fun a => Fin.ext (by
      match a with
      | ⟨0, _⟩ => exact (right_row _ _).trans hk
      | ⟨1, _⟩ => exact right_col _ _)
  rw [el, er]
  rfl

/-! ## The bias row broadcast down the rows -/

theorem bias_apply (b : FVec Ideal S1x1536 .f32) (p : Fin 512) (c : Fin 1536) :
    broadcastTo S512x1536 (shapeCast S1x1536 (shapeCast S1x1536 b shapeCasts_S1x1536_S1x1536) shapeCasts_S1x1536_S1x1536)
        broadcasts_S1x1536_S512x1536 (ix2 p c) = b (ix2 (0 : Fin 1) c) := by
  rw [shapeCast_self, shapeCast_self]
  exact broadcastTo_apply b broadcasts_S1x1536_S512x1536 (ix2 p c) (ix2 (0 : Fin 1) c) (fun a => match a with
    | ⟨0, _⟩ => by show 0 = if (1 : Nat) = 1 then 0 else p.val; rw [if_pos rfl]
    | ⟨1, _⟩ => by show c.val = if (1536 : Nat) = 1 then 0 else c.val; rw [if_neg (by decide)])

/-! ## The entry -/

theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl

/-- The body's result at row p, column q is the cell's entry. -/
theorem cell_entry (x h : Vec Ideal S512x512 .f32) (wi wh : Vec Ideal S512x1536 .bf16) (b : Vec Ideal S1x1536 .f32)
    (p q : Fin 512) :
    k0_pay1 (F := Ideal) x h wi wh b (ix2 p q)
      = entry (fun k => x (ix2 p k)) (fun k => h (ix2 p k)) (fun g k => wi (ix2 k (col g q))) (fun g k => wh (ix2 k (col g q)))
          (fun g => b (ix2 (0 : Fin 1) (col g q))) (h (ix2 p q)) := by
  unfold k0_pay1
  simp only [addf_apply, mulf_apply, subf_apply, broadcast_apply, logistic_at, tanh_at, panel_reset, panel_update,
    panel_candidate, product_apply, bias_apply]
  simp only [Ideal.ofBits_def, word_one]
  rfl

end Cert.KernelIdeal.CellValue

end
-- ==== Proof.IdealValue.lean ====
/-
  The whole output array after the launch.

  Row block t of the output is written back once, holding the cell's formula over rows 512 t .. 512 t + 511 of the
  two activations (the blocks staged there), the whole of the two weight matrices and the whole bias row. So block
  t of the final array is block t of ONE function of the arrays the launch found: the cell's new hidden state. The 32
  row blocks tile the 16384 rows, so the array ends holding that function everywhere. The weight matrices the
  launch found are the host's concatenations of the six weight arguments, and the bias row is the three bias
  arguments laid end to end: entry 512 g + q of the row is entry q of gate g's bias.
-/
import proofs.«130231_j40003325395615_2_alg».proof.Proof.IdealCell
import proofs.«130231_j40003325395615_2_alg».proof.Proof.CellEntry
import Idealize.ShloMosaic.Lib.StableHlo.Run

set_option maxRecDepth 16384

noncomputable section

namespace Cert.KernelIdeal.Launched

open Cert.KernelIdeal Cert.KernelIdeal.Gen Cert.GatedCell Cert.KernelIdeal.CellValue
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-! ## One function of the arrays the launch finds -/

/-- Gate g's bias, read off the 1 x 1536 bias row at entries 512 g .. 512 g + 511. -/
def gateBias (B : S1x1536.Idx → EReal) : Fin 3 → S512.Idx → EReal := fun g j => B (ix2 (0 : Fin 1) (col g (j 0)))

/-- The cell's new hidden state over the arrays the launch finds. -/
def stateAtLaunch (c : Dev nD) : S16384x512.Idx → EReal :=
  newState (atLaunch m c main_arg0) (atLaunch m c main_arg1) (atLaunch m c main_v1) (atLaunch m c main_v3)
    (gateBias (atLaunch m c main_v5))

/-- The body's result at an entry `y` of its block is the new hidden state at an array entry `i`, once the staged
    blocks are known to be: row `y 0` of each activation block row `i 0` of its array, the weight and bias blocks
    the whole arrays, and the column `y 1` the column `i 1`. -/
theorem entry_of_blocks (X H : S16384x512.Idx → EReal) (Wi Wh : S512x1536.Idx → EReal) (B : S1x1536.Idx → EReal)
    (xb hb : Vec Ideal S512x512 .f32) (wi wh : Vec Ideal S512x1536 .bf16) (b : Vec Ideal S1x1536 .f32)
    (i : S16384x512.Idx) (y : S512x512.Idx)
    (hx : ∀ k, xb (ix2 (y 0) k) = X (ix2 (i 0) k)) (hh : ∀ k, hb (ix2 (y 0) k) = H (ix2 (i 0) k))
    (hwi : wi = Wi) (hwh : wh = Wh) (hB : b = B) (hq : y 1 = i 1) :
    k0_pay1 (F := Ideal) xb hb wi wh b y = newState X H Wi Wh (gateBias B) i := by
  obtain ⟨p, q, rfl⟩ : ∃ (p q : Fin 512), y = ix2 p q := ⟨y 0, y 1, eq_ix2 y⟩
  have hx' : ∀ k, xb (ix2 p k) = X (ix2 (i 0) k) := hx
  have hh' : ∀ k, hb (ix2 p k) = H (ix2 (i 0) k) := hh
  have hq' : q = i 1 := hq
  rw [cell_entry]
  subst hwi hwh hB hq'
  unfold newState gateBias
  have hi : H i = hb (ix2 p (i 1)) := (congrArg H (eq_ix2 i)).trans (hh' (i 1)).symm
  rw [hi]
  simp only [hx', hh']

/-! ## Where the blocks sit -/

/-- The index maps over the 32 row blocks: the activations' and the output's blocks move down the rows with the
    block number, the weights' and the bias row's blocks stay at the origin. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What row block `t` writes back is block `t` of the new hidden state over the arrays the launch found. -/
theorem written_back (c : Dev nD) (t : Fin cfg0.N) :
    (dats m 0 c).flushed 5 t = ((cfg0.win 5).blk t).view.read (Elt Ideal) (stateAtLaunch m c) := by
  show (cfg0.win 5).cut (grid0.coords t) ((dats m 0 c).after 5 t) = _
  rw [after_5]
  obtain ⟨a00, a01, a10, a11, a20, a21, a30, a31, a40, a41, a50, a51⟩ := block_indices t
  funext j
  show k0_pay1 (F := Ideal) (blockAt m c 0 t) (blockAt m c 1 t) (blockAt m c 2 t) (blockAt m c 3 t) (blockAt m c 4 t) j
    = stateAtLaunch m c (((cfg0.win 5).blk t).view.emb j)
  unfold stateAtLaunch
  have hj0 : (j 0).val < 512 := (j 0).isLt
  have hj1 : (j 1).val < 512 := (j 1).isLt
  refine entry_of_blocks (atLaunch m c main_arg0) (atLaunch m c main_arg1) (atLaunch m c main_v1) (atLaunch m c main_v3)
    (atLaunch m c main_v5) (blockAt m c 0 t) (blockAt m c 1 t) (blockAt m c 2 t) (blockAt m c 3 t) (blockAt m c 4 t)
    (((cfg0.win 5).blk t).view.emb j) j ?_ ?_ ?_ ?_ ?_ ?_
  · intro k
    show atLaunch m c main_arg0 (((cfg0.win 0).blk t).view.emb (ix2 (j 0) k)) = atLaunch m c main_arg0 _
    refine congrArg _ (funext fun a => Fin.ext ?_)
    have hk : k.val < 512 := k.isLt
    match a with
    | ⟨0, _⟩ => show win0_0.index t (0 : Fin 2) * 512 + 1 * (j 0).val = win0_5.index t (0 : Fin 2) * 512 + 1 * (j 0).val; omega
    | ⟨1, _⟩ => show win0_0.index t (1 : Fin 2) * 512 + 1 * k.val = k.val; omega
  · intro k
    show atLaunch m c main_arg1 (((cfg0.win 1).blk t).view.emb (ix2 (j 0) k)) = atLaunch m c main_arg1 _
    refine congrArg _ (funext fun a => Fin.ext ?_)
    have hk : k.val < 512 := k.isLt
    match a with
    | ⟨0, _⟩ => show win0_1.index t (0 : Fin 2) * 512 + 1 * (j 0).val = win0_5.index t (0 : Fin 2) * 512 + 1 * (j 0).val; omega
    | ⟨1, _⟩ => show win0_1.index t (1 : Fin 2) * 512 + 1 * k.val = k.val; omega
  · funext y
    show atLaunch m c main_v1 (((cfg0.win 2).blk t).view.emb y) = atLaunch m c main_v1 y
    refine congrArg _ (funext fun a => Fin.ext ?_)
    match a with
    | ⟨0, _⟩ => show win0_2.index t (0 : Fin 2) * 512 + 1 * (y 0).val = (y 0).val; omega
    | ⟨1, _⟩ => show win0_2.index t (1 : Fin 2) * 1536 + 1 * (y 1).val = (y 1).val; omega
  · funext y
    show atLaunch m c main_v3 (((cfg0.win 3).blk t).view.emb y) = atLaunch m c main_v3 y
    refine congrArg _ (funext fun a => Fin.ext ?_)
    match a with
    | ⟨0, _⟩ => show win0_3.index t (0 : Fin 2) * 512 + 1 * (y 0).val = (y 0).val; omega
    | ⟨1, _⟩ => show win0_3.index t (1 : Fin 2) * 1536 + 1 * (y 1).val = (y 1).val; omega
  · funext y
    show atLaunch m c main_v5 (((cfg0.win 4).blk t).view.emb y) = atLaunch m c main_v5 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 1536 + 1 * (y 1).val = (y 1).val; omega
  · apply Fin.ext
    show (j 1).val = win0_5.index t (1 : Fin 2) * 512 + 1 * (j 1).val
    omega

/-- An entry of the output array lies in row block `t`'s block iff its row is one of the block's 512 rows. -/
theorem mem_block (t : Fin cfg0.N) (i : S16384x512.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v6).slice (win0_5.rect t)).set ↔ _
  rw [View.set_slice_whole, Rect.mem_set_unit]
  exact Iff.rfl

/-- Every entry of the output lies in the block of the row block its row falls in: row r in block r / 512. -/
theorem every_entry_written (i : S16384x512.Idx) :
    ∃ t : Fin cfg0.N, (cfg0.win 5).flush t = true ∧ i ∈ ((cfg0.win 5).blk t).view.set := by
  have hi0 : (i 0).val < 16384 := (i 0).isLt
  have hi1 : (i 1).val < 512 := (i 1).isLt
  have hN : cfg0.N = 32 := N_0
  let t : Fin cfg0.N := ⟨(i 0).val / 512, by rw [hN]; omega⟩
  have ht : t.val = (i 0).val / 512 := rfl
  obtain ⟨a00, a01, a10, a11, a20, a21, a30, a31, a40, a41, a50, a51⟩ := block_indices t
  refine ⟨t, flush0_5 t, ?_⟩
  rw [mem_block]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- The output array after the launch is the new hidden state over the arrays the launch found. -/
theorem output_after (c : Dev nD) : (dats m 0 c).arrAt 5 cfg0.N = stateAtLaunch m c :=
  (dats m 0 c).arrAt_eq_of_cover 5 (stateAtLaunch m c) (fun t _ => written_back m c t) every_entry_written

end Cert.KernelIdeal.Launched

end
-- ==== Proof.IdealGiven.lean ====
/-
  The launch's arrays in terms of the given arguments.

  The launch finds the two activations as given; the two wide weight matrices are the host's concatenations of
  the three input-side and the three hidden-side weight arguments (the change of float format is the identity on
  the extended reals); the bias row is the three bias arguments laid end to end and read as one row, so its entry
  512 g + q is entry q of gate g's bias. Hence the output array after the launch is the cell's new hidden state
  over the given arguments.
-/
import proofs.«130231_j40003325395615_2_alg».proof.Proof.IdealValue

set_option maxRecDepth 16384

noncomputable section

namespace Cert.KernelIdeal.Launched

open Cert.KernelIdeal Cert.KernelIdeal.Gen Cert.GatedCell Cert.KernelIdeal.CellValue
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- Three 512 x 512 matrices side by side. -/
abbrev sideBySide (a b d : S512x512.Idx → EReal) : S512x1536.Idx → EReal :=
  concatenate S512x1536 1 [⟨S512x512, a⟩, ⟨S512x512, b⟩, ⟨S512x512, d⟩] concatenates_S512x512_S512x512_S512x512_S512x1536_d1

theorem found_input_weights (c : Dev nD) :
    (atLaunch m c main_v1 : S512x1536.Idx → EReal)
      = sideBySide (m ((c : Thread nD τ).loc main_arg2)) (m ((c : Thread nD τ).loc main_arg5)) (m ((c : Thread nD τ).loc main_arg8)) := by
  dsimp only [atLaunch, hostOps0]
  after_results
  rfl

theorem found_hidden_weights (c : Dev nD) :
    (atLaunch m c main_v3 : S512x1536.Idx → EReal)
      = sideBySide (m ((c : Thread nD τ).loc main_arg3)) (m ((c : Thread nD τ).loc main_arg6)) (m ((c : Thread nD τ).loc main_arg9)) := by
  dsimp only [atLaunch, hostOps0]
  after_results
  rfl

/-- Three vectors of 512 end to end, read as one row. -/
abbrev endToEnd (a b d : S512.Idx → EReal) : S1x1536.Idx → EReal :=
  shapeCast S1x1536 (concatenate S1536 0 [⟨S512, a⟩, ⟨S512, b⟩, ⟨S512, d⟩] concatenates_S512_S512_S512_S1536_d0)
    shapeCasts_S1536_S1x1536

theorem found_bias_row (c : Dev nD) :
    (atLaunch m c main_v5 : S1x1536.Idx → EReal)
      = endToEnd (m ((c : Thread nD τ).loc main_arg4)) (m ((c : Thread nD τ).loc main_arg7)) (m ((c : Thread nD τ).loc main_arg10)) := by
  dsimp only [atLaunch, hostOps0]
  after_results
  rfl

/-- Entry 512 g + q of three vectors laid end to end is entry q of the g-th. -/
theorem gateBias_endToEnd (a b d : S512.Idx → EReal) : gateBias (endToEnd a b d) = gateOf a b d := by
  funext g j
  unfold gateBias endToEnd
  have hj : (j 0).val < 512 := (j 0).isLt
  rw [shapeCast_apply _ shapeCasts_S1536_S1x1536 (ix2 (0 : Fin 1) (col g (j 0))) (ix1 (col g (j 0)))
    (by rw [Shape.rowMajor_val_one, Shape.rowMajor_val_two]; show (col g (j 0)).val = 0 * 1536 + (col g (j 0)).val; omega)]
  match g with
  | ⟨0, _⟩ =>
    exact concatenate_apply_piece (t := S1536) (0 : Fin 1) [⟨S512, a⟩, ⟨S512, b⟩, ⟨S512, d⟩] concatenates_S512_S512_S512_S1536_d0 _ 0 (by show (0 : Nat) < 3; omega) S512 a rfl rfl 0 rfl j
      (fun b hb => absurd (Subsingleton.elim _ _) hb) (by show 0 + (j 0).val = 512 * 0 + (j 0).val; omega)
  | ⟨1, _⟩ =>
    exact concatenate_apply_piece (t := S1536) (0 : Fin 1) [⟨S512, a⟩, ⟨S512, b⟩, ⟨S512, d⟩] concatenates_S512_S512_S512_S1536_d0 _ 1 (by show (1 : Nat) < 3; omega) S512 b rfl rfl 512 rfl j
      (fun b hb => absurd (Subsingleton.elim _ _) hb) (by show 512 + (j 0).val = 512 * 1 + (j 0).val; omega)
  | ⟨2, _⟩ =>
    exact concatenate_apply_piece (t := S1536) (0 : Fin 1) [⟨S512, a⟩, ⟨S512, b⟩, ⟨S512, d⟩] concatenates_S512_S512_S512_S1536_d0 _ 2 (by show (2 : Nat) < 3; omega) S512 d rfl rfl 1024 rfl j
      (fun b hb => absurd (Subsingleton.elim _ _) hb) (by show 1024 + (j 0).val = 512 * 2 + (j 0).val; omega)

/-- The cell's new hidden state over the given arguments. -/
def stateGiven (c : Dev nD) : S16384x512.Idx → EReal :=
  newState (m ((c : Thread nD τ).loc main_arg0)) (m ((c : Thread nD τ).loc main_arg1))
    (sideBySide (m ((c : Thread nD τ).loc main_arg2)) (m ((c : Thread nD τ).loc main_arg5)) (m ((c : Thread nD τ).loc main_arg8)))
    (sideBySide (m ((c : Thread nD τ).loc main_arg3)) (m ((c : Thread nD τ).loc main_arg6)) (m ((c : Thread nD τ).loc main_arg9)))
    (gateOf (m ((c : Thread nD τ).loc main_arg4)) (m ((c : Thread nD τ).loc main_arg7)) (m ((c : Thread nD τ).loc main_arg10)))

theorem stateAtLaunch_eq (c : Dev nD) : stateAtLaunch m c = stateGiven m c := by
  unfold stateAtLaunch stateGiven
  rw [found_input_weights, found_hidden_weights, found_bias_row, gateBias_endToEnd, atLaunch_arg0, atLaunch_arg1]

/-- The idealized kernel, run: it terminates without fault, the output array holds the cell's new hidden state over
    the given arguments, and the arguments are unchanged. -/
theorem kernel_run : θ_run defs (onTc (τ := τ) (main (F := Ideal))) ⟨m, fun _ => 0, ρ⟩ (fun r => ∀ c : Dev nD,
      r.2.mem ((c.tc : Thread nD τ).loc main_v6) = stateGiven m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).1 5).trans ((output_after m c).trans (stateAtLaunch_eq m c)),
      ((h c).1 0).trans (((dats m 0 c).arrAt_in 0 rfl _).trans ((dats_A m c 0).trans (atLaunch_arg0 m c))),
      ((h c).1 1).trans (((dats m 0 c).arrAt_in 1 rfl _).trans ((dats_A m c 1).trans (atLaunch_arg1 m c))),
      ((h c).2 main_arg2 (Pipeline.mem_restRefs_of main_arg2 (by decide) (by decide))).trans (atLaunch_arg2 m c),
      ((h c).2 main_arg3 (Pipeline.mem_restRefs_of main_arg3 (by decide) (by decide))).trans (atLaunch_arg3 m c),
      ((h c).2 main_arg4 (Pipeline.mem_restRefs_of main_arg4 (by decide) (by decide))).trans (atLaunch_arg4 m c),
      ((h c).2 main_arg5 (Pipeline.mem_restRefs_of main_arg5 (by decide) (by decide))).trans (atLaunch_arg5 m c),
      ((h c).2 main_arg6 (Pipeline.mem_restRefs_of main_arg6 (by decide) (by decide))).trans (atLaunch_arg6 m c),
      ((h c).2 main_arg7 (Pipeline.mem_restRefs_of main_arg7 (by decide) (by decide))).trans (atLaunch_arg7 m c),
      ((h c).2 main_arg8 (Pipeline.mem_restRefs_of main_arg8 (by decide) (by decide))).trans (atLaunch_arg8 m c),
      ((h c).2 main_arg9 (Pipeline.mem_restRefs_of main_arg9 (by decide) (by decide))).trans (atLaunch_arg9 m c),
      ((h c).2 main_arg10 (Pipeline.mem_restRefs_of main_arg10 (by decide) (by decide))).trans (atLaunch_arg10 m c)⟩)
    (launch_runs m ρ)

end Cert.KernelIdeal.Launched

end
-- ==== Proof.RefIsCell.lean ====
/-
  The reference computes the gated recurrent cell.

  Its 46 host operations, read entry by entry at the extended reals: the two products with the concatenated
  weight matrices are sums of 512 products; the three column panels are read at columns q, 512 + q and 1024 + q;
  each bias is broadcast down the rows; each sigmoid is spelt 1 / (1 + e^(−s)) with the float word of 1.0, which
  denotes one. What remains is the cell's formula, term for term.
-/
import proofs.«130231_j40003325395615_2_alg».proof.Proof.Gen.ReferenceIdeal.Read
import proofs.«130231_j40003325395615_2_alg».proof.Proof.GatedCell

set_option maxRecDepth 16384

noncomputable section

namespace Cert.ReferenceIdeal.AsCell

open Cert.ReferenceIdeal Cert.ReferenceIdeal.Gen Cert.ReferenceIdeal.Read Cert.GatedCell
open Idealize.ShloMosaic Idealize.ShloMosaic.ValueIdx

/-! The entries each stage reads, in the cell's coordinates: row `i 0` of an activation against column
    `512 g + i 1` of a concatenated weight matrix, and entry `i 1` of a bias. -/

theorem row_v4 (i : S16384x512.Idx) (k : Fin 512) : lidx_main_v2 (idx_main_v4 i) k = ix2 (i 0) k :=
  funext fun a => match a with | ⟨0, _⟩ => rfl | ⟨1, _⟩ => rfl
theorem col_v4 (i : S16384x512.Idx) (k : Fin 512) : ridx_main_v2 (idx_main_v4 i) k = ix2 k (col 0 (i 1)) :=
  funext fun a => Fin.ext (match a with
    | ⟨0, _⟩ => rfl
    | ⟨1, _⟩ => by show (i 1).val = 512 * 0 + (i 1).val; omega)
theorem row_v16 (i : S16384x512.Idx) (k : Fin 512) : lidx_main_v2 (idx_main_v16 i) k = ix2 (i 0) k :=
  funext fun a => match a with | ⟨0, _⟩ => rfl | ⟨1, _⟩ => rfl
theorem col_v16 (i : S16384x512.Idx) (k : Fin 512) : ridx_main_v2 (idx_main_v16 i) k = ix2 k (col 1 (i 1)) :=
  funext fun a => Fin.ext (match a with
    | ⟨0, _⟩ => rfl
    | ⟨1, _⟩ => by show 512 + (i 1).val = 512 * 1 + (i 1).val; omega)
theorem row_v28 (i : S16384x512.Idx) (k : Fin 512) : lidx_main_v2 (idx_main_v28 i) k = ix2 (i 0) k :=
  funext fun a => match a with | ⟨0, _⟩ => rfl | ⟨1, _⟩ => rfl
theorem col_v28 (i : S16384x512.Idx) (k : Fin 512) : ridx_main_v2 (idx_main_v28 i) k = ix2 k (col 2 (i 1)) :=
  funext fun a => Fin.ext (match a with
    | ⟨0, _⟩ => rfl
    | ⟨1, _⟩ => by show 1024 + (i 1).val = 512 * 2 + (i 1).val; omega)
theorem row_v5 (i : S16384x512.Idx) (k : Fin 512) : lidx_main_v3 (idx_main_v5 i) k = ix2 (i 0) k :=
  funext fun a => match a with | ⟨0, _⟩ => rfl | ⟨1, _⟩ => rfl
theorem col_v5 (i : S16384x512.Idx) (k : Fin 512) : ridx_main_v3 (idx_main_v5 i) k = ix2 k (col 0 (i 1)) :=
  funext fun a => Fin.ext (match a with
    | ⟨0, _⟩ => rfl
    | ⟨1, _⟩ => by show (i 1).val = 512 * 0 + (i 1).val; omega)
theorem row_v17 (i : S16384x512.Idx) (k : Fin 512) : lidx_main_v3 (idx_main_v17 i) k = ix2 (i 0) k :=
  funext fun a => match a with | ⟨0, _⟩ => rfl | ⟨1, _⟩ => rfl
theorem col_v17 (i : S16384x512.Idx) (k : Fin 512) : ridx_main_v3 (idx_main_v17 i) k = ix2 k (col 1 (i 1)) :=
  funext fun a => Fin.ext (match a with
    | ⟨0, _⟩ => rfl
    | ⟨1, _⟩ => by show 512 + (i 1).val = 512 * 1 + (i 1).val; omega)
theorem row_v29 (i : S16384x512.Idx) (k : Fin 512) : lidx_main_v3 (idx_main_v29 i) k = ix2 (i 0) k :=
  funext fun a => match a with | ⟨0, _⟩ => rfl | ⟨1, _⟩ => rfl
theorem col_v29 (i : S16384x512.Idx) (k : Fin 512) : ridx_main_v3 (idx_main_v29 i) k = ix2 k (col 2 (i 1)) :=
  funext fun a => Fin.ext (match a with
    | ⟨0, _⟩ => rfl
    | ⟨1, _⟩ => by show 1024 + (i 1).val = 512 * 2 + (i 1).val; omega)
theorem bias_v8 (i : S16384x512.Idx) : idx_main_v7 (idx_main_v8 i) = ix1 (i 1) :=
  funext fun a => match a with | ⟨0, _⟩ => rfl
theorem bias_v20 (i : S16384x512.Idx) : idx_main_v19 (idx_main_v20 i) = ix1 (i 1) :=
  funext fun a => match a with | ⟨0, _⟩ => rfl
theorem bias_v33 (i : S16384x512.Idx) : idx_main_v32 (idx_main_v33 i) = ix1 (i 1) :=
  funext fun a => match a with | ⟨0, _⟩ => rfl

/-- The reference's result, as a function of its eleven arguments, is the cell over the two concatenated weight
    matrices and the three biases. -/
theorem reference_is_cell (x0 x1 : (⟨S16384x512, .f32⟩ : BufTy).Contents (Elt Ideal))
    (x2 x3 : (⟨S512x512, .f32⟩ : BufTy).Contents (Elt Ideal)) (x4 : (⟨S512, .f32⟩ : BufTy).Contents (Elt Ideal))
    (x5 x6 : (⟨S512x512, .f32⟩ : BufTy).Contents (Elt Ideal)) (x7 : (⟨S512, .f32⟩ : BufTy).Contents (Elt Ideal))
    (x8 x9 : (⟨S512x512, .f32⟩ : BufTy).Contents (Elt Ideal)) (x10 : (⟨S512, .f32⟩ : BufTy).Contents (Elt Ideal)) :
    val_main_v40 (F := Ideal) x0 x1 x2 x3 x4 x5 x6 x7 x8 x9 x10
      = newState x0 x1 (val_main_v0 (F := Ideal) x2 x5 x8) (val_main_v1 (F := Ideal) x3 x6 x9)
          (gateOf x4 x7 x10) := by
  funext i
  simp only [val_main_v40_apply, val_main_v39_apply, val_main_v38_apply, val_main_v37_apply, val_main_v36_apply, val_main_cst_3_apply, val_main_v35_apply, val_main_v34_apply, val_main_v33_apply, val_main_v32_apply, val_main_v31_apply, val_main_v30_apply, val_main_v29_apply, val_main_v28_apply, val_main_v27_apply, val_main_v26_apply, val_main_cst_2_apply, val_main_v25_apply, val_main_v24_apply, val_main_cst_1_apply, val_main_v23_apply, val_main_v22_apply, val_main_v21_apply, val_main_v20_apply, val_main_v19_apply, val_main_v18_apply, val_main_v17_apply, val_main_v16_apply, val_main_v15_apply, val_main_v14_apply, val_main_cst_0_apply, val_main_v13_apply, val_main_v12_apply, val_main_cst_apply, val_main_v11_apply, val_main_v10_apply, val_main_v9_apply, val_main_v8_apply, val_main_v7_apply, val_main_v6_apply, val_main_v5_apply, val_main_v4_apply, val_main_v3_apply, val_main_v2_apply]
  simp only [row_v4, row_v16, row_v28, row_v5, row_v17, row_v29, col_v4, col_v16, col_v28, col_v5, col_v17, col_v29,
    bias_v8, bias_v20, bias_v33]
  simp only [Ideal.addf_def, Ideal.mulf_def, Ideal.subf_def, Ideal.hostDivf_def, Ideal.hostUnary_exp_def, Ideal.hostNegf_def,
    Ideal.negf_def, Ideal.hostUnary_tanh_def, Ideal.ofBits_def, logistic_spelt]
  simp only [word_one]
  rfl

end Cert.ReferenceIdeal.AsCell

end
-- ==== Proof.lean ====
/-
  A gated recurrent cell computed by one launch over 32 row blocks of the batch, against its plain reference.

  Both programs compute, for every batch row i and hidden unit q,

      r = σ(x_i · Wi[:, q] + h_i · Wh[:, q] + b_r[q])
      z = σ(x_i · Wi[:, 512 + q] + h_i · Wh[:, 512 + q] + b_z[q])
      n = tanh(x_i · Wi[:, 1024 + q] + r (h_i · Wh[:, 1024 + q]) + b_n[q])
      out[i, q] = (1 − z) n + z h[i, q]

  where Wi and Wh are the three input-side and the three hidden-side weight matrices side by side. On the
  extended reals a change of float format is the identity, a matrix product is the sum of its 512 products in any
  grouping, and the kernel's logistic operation is the reference's 1 / (1 + e^(−s)); no law beyond these is used,
  so finiteness of the inputs is never needed. The kernel tiles only the rows: row block t of the output depends
  on row block t of x and h and on the whole weights and biases, and the 32 blocks tile the 16384 rows.

  The three frames: each program terminates without fault and leaves its eleven arguments as given (the
  kernel's host operations and its launch write only intermediate buffers and the result). The idealization
  rewrote nothing, so the preservation claim is trivial.
-/
import proofs.«130231_j40003325395615_2_alg».proof.Defs
import proofs.«130231_j40003325395615_2_alg».proof.Proof.Gen.Kernel
import proofs.«130231_j40003325395615_2_alg».proof.Proof.Gen.KernelIdeal
import proofs.«130231_j40003325395615_2_alg».proof.Proof.Gen.ReferenceIdeal
import proofs.«130231_j40003325395615_2_alg».proof.Proof.Gen.Pre_finite_inputs
import proofs.«130231_j40003325395615_2_alg».proof.Proof.Gen.ReferenceIdeal.Run
import proofs.«130231_j40003325395615_2_alg».proof.Proof.Gen.ReferenceIdeal.Read
import proofs.«130231_j40003325395615_2_alg».proof.Proof.BitsCell
import proofs.«130231_j40003325395615_2_alg».proof.Proof.IdealGiven
import proofs.«130231_j40003325395615_2_alg».proof.Proof.RefIsCell
import Idealize.ShloMosaic.Adequacy
import Idealize.ShloMosaic.Init

set_option maxRecDepth 16384

noncomputable section

namespace Cert.Proof

open Idealize.ShloMosaic Idealize.SL.Sem

/-- The kernel as printed runs to the end and leaves its arguments as given. -/
theorem frame_kernel : Cert.frame_Kernel := fun m ρ _ => Cert.Kernel.Launched.arguments_kept (F := Bits) m ρ

/-- So does the kernel read at the extended reals. -/
theorem frame_ideal : Cert.frame_KernelIdeal := fun m ρ _ => Cert.KernelIdeal.Launched.arguments_kept (F := Ideal) m ρ

/-- So does the reference: its run names its result and keeps its arguments. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the cell's new hidden state over those arguments:
    the kernel's output array row block by row block, the reference's result operation by operation. -/
theorem same_state : Cert.algebraic_KernelIdeal_ReferenceIdeal := by
  intro m ρ m' ρ' _ hagree
  refine ⟨fun c => Cert.KernelIdeal.Launched.stateGiven m c, Cert.KernelIdeal.Launched.kernel_run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v40 m' c = Cert.KernelIdeal.Launched.stateGiven m c
  rw [Cert.ReferenceIdeal.Read.val_main_v40_eq, Cert.ReferenceIdeal.AsCell.reference_is_cell]
  obtain ⟨h0, h1, h2, h3, h4, h5, h6, h7, h8, h9, h10⟩ := hagree c
  rw [h0, h1, h2, h3, h4, h5, h6, h7, h8, h9, h10]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, same_state⟩

end Cert.Proof

end
